-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100 : Shape := ⟨2, ![1024, 100]⟩
abbrev S100x128 : Shape := ⟨2, ![100, 128]⟩
abbrev S_ : Shape := ⟨0, ![]⟩

class Facts : Prop where
  bcast_S_S1024x100 : S_.BroadcastsInDim S1024x100 (![] : Fin 0 → Fin S1024x100.rank)
  reducesTo_S1024x100_S_d0_1 : S1024x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_

variable [Facts]

def fn {F : FTy → Type} [FloatOps F] (main_arg0 : FVec F S1024x100 .f32) (main_arg1 : FVec F S100x128 .f32) : IVec S_ 1 :=
  let main_v0 : FVec F S1024x100 .f32 := Host.absf main_arg0
  let main_cst : FVec F S_ .f32 := constant S_ .f32 0x7F800000#32
  let main_v1 : FVec F S1024x100 .f32 := broadcastInDim S1024x100 ![] bcast_S_S1024x100 main_cst
  let main_v2 : IVec S1024x100 1 := cmpf .olt main_v0 main_v1
  let main_c : IVec S_ 1 := constantI S_ 1 1#1
  let main_v3 : IVec S_ 1 := (fun x v => Host.reduce IntOp.andi x v reducesTo_S1024x100_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  main_v8
-- ==== Kernel.lean ====
abbrev S1024x100 : Shape := ⟨2, ![1024, 100]⟩
abbrev S100x128 : Shape := ⟨2, ![100, 128]⟩
abbrev S1024x128 : Shape := ⟨2, ![1024, 128]⟩
abbrev S256x100 : Shape := ⟨2, ![256, 100]⟩
abbrev S256x128 : Shape := ⟨2, ![256, 128]⟩
abbrev S768x128 : Shape := ⟨2, ![768, 128]⟩

abbrev nBuf : Space → Nat
  | .hbm => 3
  | .vmem => 3
  | .smem => 0
  | _ => 0

abbrev bufTy : (tb : Table) → Fin (tcTables nBuf tb) → BufTy
  | .hbm, ⟨0, _⟩ => ⟨S1024x100, .f32⟩
  | .hbm, ⟨1, _⟩ => ⟨S100x128, .f32⟩
  | .hbm, ⟨2, _⟩ => ⟨S1024x128, .f32⟩
  | .local _ .vmem, ⟨0, _⟩ => ⟨S1024x100, .f32⟩
  | .local _ .vmem, ⟨1, _⟩ => ⟨S100x128, .f32⟩
  | .local _ .vmem, ⟨2, _⟩ => ⟨S1024x128, .f32⟩
  | _, _ => ⟨S1024x100, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  inb_S1024x100_S256x100_0_0 : ∀ a, (![0, 0] : Fin 2 → Nat) a + S256x100.size a ≤ S1024x100.size a
  h_S256x100 : 0 < S256x100.numel
  inb_S100x128_S100x128_0_0 : ∀ a, (![0, 0] : Fin 2 → Nat) a + S100x128.size a ≤ S100x128.size a
  h_S100x128 : 0 < S100x128.numel
  inb_S1024x128_S256x128_0_0 : ∀ a, (![0, 0] : Fin 2 → Nat) a + S256x128.size a ≤ S1024x128.size a
  h_S256x128 : 0 < S256x128.numel
  inb_S1024x128_S768x128_256_0 : ∀ a, (![256, 0] : Fin 2 → Nat) a + S768x128.size a ≤ S1024x128.size a
  h_S768x128 : 0 < S768x128.numel
  dot_S256x100_S100x128_S256x128_1_0_0_1_n_n_wf : DotDims.WF S256x100 S100x128 S256x128 [1] [0] [0] [1] [] []
  hstage0_0 : ∀ j, (stage0_0 j).IsWhole
  hstage0_1 : ∀ j, (stage0_1 j).IsWhole
  hstage0_2 : ∀ j, (stage0_2 j).IsWhole

variable [Facts₀]

def dot_S256x100_S100x128_S256x128_1_0_0_1_n_n : DotDims S256x100 S100x128 S256x128 where
  lhsContracting := [1]
  rhsContracting := [0]
  lhsNonContracting := [0]
  rhsNonContracting := [1]
  lhsBatch := []
  rhsBatch := []
  wf := dot_S256x100_S100x128_S256x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x100 : Shape := ⟨2, ![1024, 100]⟩
abbrev S100x128 : Shape := ⟨2, ![100, 128]⟩
abbrev S256 : Shape := ⟨1, ![256]⟩
abbrev S1024x128 : Shape := ⟨2, ![1024, 128]⟩
abbrev S_ : Shape := ⟨0, ![]⟩
abbrev S256x1 : Shape := ⟨2, ![256, 1]⟩
abbrev S256x128 : Shape := ⟨2, ![256, 128]⟩

abbrev nBuf : Space → Nat
  | .hbm => 32
  | .vmem => 0
  | .smem => 0
  | _ => 0

abbrev bufTy : (tb : Table) → Fin (tcTables nBuf tb) → BufTy
  | .hbm, ⟨0, _⟩ => ⟨S1024x100, .f32⟩
  | .hbm, ⟨1, _⟩ => ⟨S100x128, .f32⟩
  | .hbm, ⟨2, _⟩ => ⟨S256, .i32⟩
  | .hbm, ⟨3, _⟩ => ⟨S1024x128, .f32⟩
  | .hbm, ⟨4, _⟩ => ⟨S1024x100, .f32⟩
  | .hbm, ⟨5, _⟩ => ⟨S100x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S_, .f32⟩
  | .hbm, ⟨13, _⟩ => ⟨S1024x128, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x128, .f32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S1024x128, .f32⟩
  | _, _ => ⟨S1024x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S_S256 : S_.BroadcastsInDim S256 (![] : Fin 0 → Fin S256.rank)
  bcast_S256_S256x1_0 : S256.BroadcastsInDim S256x1 (![0] : Fin 1 → Fin S256x1.rank)
  dot_S1024x100_S100x128_S1024x128_1_0_0_1_n_n_wf : DotDims.WF S1024x100 S100x128 S1024x128 [1] [0] [0] [1] [] []
  gather_S1024x128_S256x1_S256x128_1_0_n_n_0_1_1128_wf : GatherDims.WF S1024x128 S256x1 S256x128 [1] [0] [] [0] [] 1 ![1, 128]
  scatter_S1024x128_S256x1_S256x128_1_0_0_1_wf : ScatterDims.WF S1024x128 S256x1 S256x128 [1] [0] [0] 1

variable [Facts₀]

def dot_S1024x100_S100x128_S1024x128_1_0_0_1_n_n : DotDims S1024x100 S100x128 S1024x128 where
  lhsContracting := [1]
  rhsContracting := [0]
  lhsNonContracting := [0]
  rhsNonContracting := [1]
  lhsBatch := []
  rhsBatch := []
  wf := dot_S1024x100_S100x128_S1024x128_1_0_0_1_n_n_wf
def gather_S1024x128_S256x1_S256x128_1_0_n_n_0_1_1128 : GatherDims S1024x128 S256x1 S256x128 where
  offsetDims := [1]
  collapsedSliceDims := [0]
  operandBatchingDims := []
  startIndicesBatchingDims := []
  startIndexMap := [0]
  indexVectorDim := 1
  sliceSizes := ![1, 128]
  wf := gather_S1024x128_S256x1_S256x128_1_0_n_n_0_1_1128_wf
def scatter_S1024x128_S256x1_S256x128_1_0_0_1 : ScatterDims S1024x128 S256x1 S256x128 where
  updateWindowDims := [1]
  insertedWindowDims := [0]
  scatterDimsToOperandDims := [0]
  indexVectorDim := 1
  wf := scatter_S1024x128_S256x1_S256x128_1_0_0_1_wf

class Facts : Prop extends Facts₀ where

variable [Facts]
-- ==== Proof.KernelValue.lean ====
/-
  The kernel's result array, as one function of the two argument arrays.

  The kernel has no grid: its body runs once on the whole arrays. It loads rows 0 … 255 of x and the whole table E,
  computes from them the [256, 128] block 0.5 · ((x·E)² − (x²)·(E²)) (`k0_pay1`), stores that block on rows 0 … 255 of
  the output, and stores zeros on rows 256 … 1023. So the output's staging buffer ends holding, at (r, c), the
  block's entry (r, c) when r < 256 and the zero word otherwise (`bodyOut`), and the one write-back copies that
  buffer to the whole result array.
-/
import proofs.«164656_g37744172598002_cont_sun_m_442_5_alg».proof.Proof.Gen.KernelIdeal.Value
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

theorem hz : (![0, 0] : Fin 2 → Nat) = fun _ => 0 := funext fun a => by fin_cases a <;> rfl

/-- Rows 0 … 255 of x, as the body's first load reads them. -/
abbrev topRows (x0 : Vec F S1024x100 .f32) : Vec F S256x100 .f32 :=
  View.ld x0 (Rect.unit (s := S1024x100) ![0, 0] S256x100.size inb_S1024x100_S256x100_0_0)

/-- What the body leaves in the output's staging buffer: on rows 0 … 255 the computed block, zeros below. -/
def bodyOut (x0 : Vec F S1024x100 .f32) (x1 : Vec F S100x128 .f32) : Vec F S1024x128 .f32 := fun i =>
  if h : (i 0).val < 256 then k0_pay1 (topRows x0) x1 (ix2 (⟨(i 0).val, h⟩ : Fin 256) (⟨(i 1).val, (i 1).isLt⟩ : Fin 128))
  else Scalar.ofBits .f32 0x00000000#32

/-- On rows 256 … 1023 — the rectangle of the second store — `bodyOut` is that store's payload, the zero block. -/
theorem bodyOut_low (x0 : Vec F S1024x100 .f32) (x1 : Vec F S100x128 .f32) (x : S768x128.Idx) :
    bodyOut x0 x1 ((Rect.unit (s := S1024x128) ![256, 0] S768x128.size inb_S1024x128_S768x128_256_0).emb x)
      = k0_pay2 (F := F) x := by
  unfold bodyOut
  have hge : ¬ ((Rect.unit (s := S1024x128) ![256, 0] S768x128.size inb_S1024x128_S768x128_256_0).emb x 0).val < 256 := by
    show ¬ (256 + 1 * (x 0).val < 256)
    omega
  rw [dif_neg hge]
  rfl

/-- On rows 0 … 255 — the rectangle of the first store — `bodyOut` is that store's payload, the computed block. -/
theorem bodyOut_top (x0 : Vec F S1024x100 .f32) (x1 : Vec F S100x128 .f32) (x : S256x128.Idx) :
    bodyOut x0 x1 ((Rect.unit (s := S1024x128) ![0, 0] S256x128.size inb_S1024x128_S256x128_0_0).emb x)
      = k0_pay1 (topRows x0) x1 x := by
  unfold bodyOut
  have hx0 : (x 0).val < 256 := (x 0).isLt
  have hlt : ((Rect.unit (s := S1024x128) ![0, 0] S256x128.size inb_S1024x128_S256x128_0_0).emb x 0).val < 256 := by
    show 0 + 1 * (x 0).val < 256
    omega
  rw [dif_pos hlt]
  congr 1
  funext a
  refine Fin.ext ?_
  match a with
  | ⟨0, _⟩ => show 0 + 1 * (x 0).val = (x 0).val; omega
  | ⟨1, _⟩ => show 0 + 1 * (x 1).val = (x 1).val; omega

/-- The two stores' pieces read back: each piece is the restriction of `bodyOut` to its rectangle, and together
    they cover the buffer. -/
theorem out_eq (c : Dev nD) (a0 : Memref sig .tc .vmem S1024x100 .f32) (h0 : a0.IsWhole)
    (a1 : Memref sig .tc .vmem S100x128 .f32) (h1 : a1.IsWhole) (a2 : Memref sig .tc .vmem S1024x128 .f32) (h2 : a2.IsWhole)
    (x0 : Vec F S1024x100 .f32) (x1 : Vec F S100x128 .f32) :
    out0_A_2 c a0 h0 a1 h1 a2 h2 x0 x1 = bodyOut x0 x1 := by
  unfold out0_A_2
  rw [View.read_writes_eq_canon _ _ _ (cover0_A_2 c a0 h0 a1 h1 a2 h2 x0 x1)]
  funext y
  refine View.canon_apply_of_pieces (bodyOut x0 x1) _ ?_ y (cover0_A_2 c a0 h0 a1 h1 a2 h2 x0 x1 y)
  unfold kernelRun0_A
  dsimp only
  intro p hp
  simp only [List.mem_cons, List.not_mem_nil, or_false] at hp
  rcases hp with rfl | rfl
  · intro x
    exact (bodyOut_low x0 x1 x).symm
  · intro x
    show k0_pay1
        (View.readAt (Elt F) a0.view (Rect.unit (s := S1024x100) ![0, 0] S256x100.size inb_S1024x100_S256x100_0_0).toLoadRect (h0.unread x0))
        (View.readAt (Elt F) a1.view (Rect.unit (s := S100x128) ![0, 0] S100x128.size inb_S100x128_S100x128_0_0).toLoadRect (h1.unread x1)) x
      = bodyOut x0 x1 ((Rect.unit (s := S1024x128) ![0, 0] S256x128.size inb_S1024x128_S256x128_0_0).emb x)
    rw [View.readAt_eq_ld, View.readAt_eq_ld, h0.read_unread, h1.read_unread, View.ld_unit_zero (S := S100x128) hz]
    exact (bodyOut_top x0 x1 x).symm

/-! ## The array after the run -/

variable (m : (ℓ : Loc nD τ sig) → Buf (Elt F) ℓ) (ρ : Dev nD → PrngReg)

/-- With no grid each window's one block is its whole array: the block of x, -/
theorem iblk0 (c : Dev nD) : (iblk m c 0 t0_0 : Vec F S1024x100 .f32) = m ((c : Thread nD τ).loc main_arg0) := by
  have hz' : (fun a => win0_0.index t0_0 a * main_arg0.ty.shape.size a) = fun _ => 0 :=
    funext fun a => by fin_cases a <;> decide
  unfold iblk
  exact Memref.read_access_unit_zero (Elt F) main_arg0 hz' (fun a => by rw [congrFun hz' a]; simp) _

/-- and the block of E. -/
theorem iblk1 (c : Dev nD) : (iblk m c 1 t0_0 : Vec F S100x128 .f32) = m ((c : Thread nD τ).loc main_arg1) := by
  have hz' : (fun a => win0_1.index t0_0 a * main_arg1.ty.shape.size a) = fun _ => 0 :=
    funext fun a => by fin_cases a <;> decide
  unfold iblk
  exact Memref.read_access_unit_zero (Elt F) main_arg1 hz' (fun a => by rw [congrFun hz' a]; simp) _

/-- The kernel's result array: `bodyOut` of the two argument arrays as launched. -/
abbrev result (c : Dev nD) : Buf (Elt F) ((c : Thread nD τ).loc main_v0) :=
  bodyOut (m ((c : Thread nD τ).loc main_arg0)) (m ((c : Thread nD τ).loc main_arg1))

/-- The one write-back writes the staging buffer, whole, to the whole result array. -/
theorem flushed_eq (c : Dev nD) (t : Fin cfg0.N) :
    (dats m 0 c).flushed 2 t = ((cfg0.win 2).blk t).view.read (Elt F) (result m c) := by
  obtain rfl : t = t0_0 := fin_N0 t
  rw [Value.flushed2_A, out_eq]
  have e : bodyOut (iblk m c 0 t0_0) (iblk m c 1 t0_0) = result m c := congrArg₂ bodyOut (iblk0 m c) (iblk1 m c)
  rw [e]
  have hz' : (fun a => win0_2.index t0_0 a * main_v0.ty.shape.size a) = fun _ => 0 :=
    funext fun a => by fin_cases a <;> decide
  exact (Memref.read_access_unit_zero (Elt F) main_v0 hz' (fun a => by rw [congrFun hz' a]; simp) (result m c)).symm

/-- So the result array ends holding `result`: the one point's block covers it. -/
theorem final (c : Dev nD) : (dats m 0 c).arrAt 2 cfg0.N = result m c :=
  (dats m 0 c).arrAt_eq_of_cover 2 (result m c) (fun t _ => flushed_eq m c t) fun i =>
    ⟨t0_0, flush0_2 t0_0, by
      show i ∈ ((View.whole main_v0).slice (win0_2.rect t0_0)).set
      rw [View.set_slice_whole, Rect.mem_set_unit]
      intro a
      have h0 : (i 0 : Nat) < 1024 := (i 0).isLt
      have h1 : (i 1 : Nat) < 128 := (i 1).isLt
      match a with
      | ⟨0, _⟩ =>
        show win0_2.index t0_0 0 * win0_2.size 0 ≤ (i 0 : Nat)
          ∧ (i 0 : Nat) < win0_2.index t0_0 0 * win0_2.size 0 + win0_2.xsize (grid0.coords t0_0) 0
        rw [show win0_2.index t0_0 0 * win0_2.size 0 = 0 from by decide +kernel,
          show win0_2.xsize (grid0.coords t0_0) 0 = 1024 from by decide +kernel]
        omega
      | ⟨1, _⟩ =>
        show win0_2.index t0_0 1 * win0_2.size 1 ≤ (i 1 : Nat)
          ∧ (i 1 : Nat) < win0_2.index t0_0 1 * win0_2.size 1 + win0_2.xsize (grid0.coords t0_0) 1
        rw [show win0_2.index t0_0 1 * win0_2.size 1 = 0 from by decide +kernel,
          show win0_2.xsize (grid0.coords t0_0) 1 = 128 from by decide +kernel]
        omega⟩

/-- The run, read: the result array at `result`, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.Spec.lean ====
/-
  Bi-interaction pooling, entry by entry, on the extended reals.

  For a row r of the batch x [1024, 100] and a column c of the table E [100, 128]:

      left  = ∑ₖ x[r, k] · E[k, c]
      right = ∑ₖ (x[r, k] · x[r, k]) · (E[k, c] · E[k, c])
      pooled (r, c) = ½ · (left · left − right)

  and the result array holds pooled (r, c) on the rows r < 256 and zero on the rows below. Both programs compute
  exactly these sums and products, in this grouping, so the two sides meet in this one expression and no law of the
  extended reals beyond reading a matrix product as a sum is needed. The two constants stay the float words ½ and +0.
-/
import Idealize.ShloMosaic.PureOps.Ideal
import Idealize.ShloMosaic.Lib.ValueIdx

noncomputable section

open scoped BigOperators
open Idealize.ShloMosaic Idealize.ShloMosaic.ValueIdx

namespace Cert.Proof.BiPool

/-- ½ · ((x·E)² − (x²)·(E²)) at (r, c). -/
def pooled (x : FVec Ideal ⟨2, ![1024, 100]⟩ .f32) (e : FVec Ideal ⟨2, ![100, 128]⟩ .f32) (r : Fin 1024) (c : Fin 128) : EReal :=
  Ideal.ofBits .f32 0x3F000000#32 *
    ((∑ k : Fin 100, x (ix2 r k) * e (ix2 k c)) * (∑ k : Fin 100, x (ix2 r k) * e (ix2 k c))
      - ∑ k : Fin 100, x (ix2 r k) * x (ix2 r k) * (e (ix2 k c) * e (ix2 k c)))

/-- The result at (r, c): pooled on the first 256 rows, zero below. -/
def spec (x : FVec Ideal ⟨2, ![1024, 100]⟩ .f32) (e : FVec Ideal ⟨2, ![100, 128]⟩ .f32) (r : Fin 1024) (c : Fin 128) : EReal :=
  if r.val < 256 then pooled x e r c else Ideal.ofBits .f32 0x00000000#32

end Cert.Proof.BiPool

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.KernelBridge.lean ====
/-
  The kernel's result at an entry, on the extended reals.

  The body's block at (p, q) is ½ · (left · left − right), where left and right are the two matrix-unit products read as
  sums over the 100 contracted positions (a product onto a zero accumulator is the plain sum); the block is computed
  from rows 0 … 255 of x, so its entry (p, q) reads row p of x. Hence the kernel's result array holds the
  specification's value at every entry: the pooled value on the first 256 rows, the zero word below.
-/
import proofs.«164656_g37744172598002_cont_sun_m_442_5_alg».proof.Proof.KernelValue
import proofs.«164656_g37744172598002_cont_sun_m_442_5_alg».proof.Proof.Spec
import proofs.«164656_g37744172598002_cont_sun_m_442_5_alg».proof.Proof.LibPlainDot

noncomputable section

open scoped BigOperators

namespace Cert.KernelIdeal.KBridge

open Cert.KernelIdeal Cert.KernelIdeal.Gen Cert.KernelIdeal.KValue Idealize.ShloMosaic Idealize.ShloMosaic.ValueIdx
open Cert.Proof

/-- The computed block at (p, q): the two products as sums, then the pointwise combine. -/
theorem pay_apply (v0 : FVec Ideal S256x100 .f32) (v1 : FVec Ideal S100x128 .f32) (p : Fin 256) (q : Fin 128) :
    k0_pay1 (F := Ideal) v0 v1 (ix2 p q)
      = Ideal.ofBits .f32 0x3F000000#32 *
        ((∑ k : Fin 100, v0 (ix2 p k) * v1 (ix2 k q)) * (∑ k : Fin 100, v0 (ix2 p k) * v1 (ix2 k q))
          - ∑ k : Fin 100, v0 (ix2 p k) * v0 (ix2 p k) * (v1 (ix2 k q) * v1 (ix2 k q))) := by
  unfold k0_pay1
  rw [mulf_apply, broadcast_apply, subf_apply, mulf_apply]
  rw [show dot_S256x100_S100x128_S256x128_1_0_0_1_n_n
      = PlainDot.plainDot 256 100 128 dot_S256x100_S100x128_S256x128_1_0_0_1_n_n_wf from rfl]
  rw [PlainDot.matmul_zero_plain_apply', PlainDot.matmul_zero_plain_apply']
  rfl

/-- Row p of the loaded top rows is row p of x. -/
theorem topRows_apply (x : FVec Ideal S1024x100 .f32) (p : Fin 256) (k : Fin 100) :
    topRows (F := Ideal) x (ix2 p k) = x (ix2 (Fin.castLE (by decide) p : Fin 1024) k) := by
  show x ((Rect.unit (s := S1024x100) ![0, 0] S256x100.size inb_S1024x100_S256x100_0_0).idx (ix2 p k)) = _
  congr 1
  funext a
  refine Fin.ext ?_
  match a with
  | ⟨0, _⟩ => show 0 + 1 * p.val = p.val; omega
  | ⟨1, _⟩ => show 0 + 1 * k.val = k.val; omega

/-- THE KERNEL'S RESULT AT (r, c) is the specification's value. -/
theorem bodyOut_eq_spec (x : FVec Ideal S1024x100 .f32) (e : FVec Ideal S100x128 .f32) (r : Fin 1024) (c : Fin 128) :
    bodyOut (F := Ideal) x e (ix2 r c) = BiPool.spec x e r c := by
  unfold bodyOut BiPool.spec
  by_cases h : r.val < 256
  · rw [dif_pos (show ((ix2 r c : S1024x128.Idx) 0).val < 256 from h), if_pos h]
    refine (pay_apply _ _ _ _).trans ?_
    unfold BiPool.pooled
    have hx : ∀ k : Fin 100, topRows (F := Ideal) x (ix2 (⟨r.val, h⟩ : Fin 256) k) = x (ix2 r k) :=
      fun k => topRows_apply x ⟨r.val, h⟩ k
    have s1 : (∑ k : Fin 100, topRows (F := Ideal) x (ix2 (⟨r.val, h⟩ : Fin 256) k) * e (ix2 k c))
        = ∑ k : Fin 100, x (ix2 r k) * e (ix2 k c) :=
      Finset.sum_congr rfl fun k _ => by rw [hx k]
    have s2 : (∑ k : Fin 100, topRows (F := Ideal) x (ix2 (⟨r.val, h⟩ : Fin 256) k)
          * topRows (F := Ideal) x (ix2 (⟨r.val, h⟩ : Fin 256) k) * (e (ix2 k c) * e (ix2 k c)))
        = ∑ k : Fin 100, x (ix2 r k) * x (ix2 r k) * (e (ix2 k c) * e (ix2 k c)) :=
      Finset.sum_congr rfl fun k _ => by rw [hx k]
    exact congrArg₂ (fun a b : EReal => Ideal.ofBits .f32 0x3F000000#32 * (a * a - b)) s1 s2
  · rw [dif_neg (show ¬ ((ix2 r c : S1024x128.Idx) 0).val < 256 from h), if_neg h]
    rfl

end Cert.KernelIdeal.KBridge

end
-- ==== Proof.RefRun.lean ====
/-
  The reference program's run, read back.

  The reference is a straight line of thirty host operations: the two matrix products, the pointwise combine
  0.5 · (left² − right), a table of the row numbers 0 … 255 (a literal), the index arithmetic jnp applies to them
  (a negative row number would be shifted by the 1024 rows), the gather of those rows of the combined array, and the
  scatter that writes the gathered rows, at the same row numbers, into an array of zeros.

  Here: the line as a list, the program as that list run in order, and — since every buffer is written once —
  the result buffer after the run as ONE term of the two argument arrays (`refOut`), with the arguments unchanged.
-/
import proofs.«164656_g37744172598002_cont_sun_m_442_5_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The literal table of row numbers: entry i is the word i, for i = 0 … 255. -/
abbrev rowWords : IVec S256 32 := fun i => lit0 (S256.rowMajor i)

/-- The row numbers as jnp normalizes them (a negative one is shifted by the number of rows, 1024), laid out as a
    column [256, 1]: the start indices of the gather and of the scatter. -/
abbrev rowIdx : IVec S256x1 32 :=
  broadcastInDim S256x1 ![0] bcast_S256_S256x1_0
    (select (cmpi .slt rowWords (broadcastInDim S256 ![] bcast_S_S256 (constantI S_ 32 0#32)))
      (addi rowWords (broadcastInDim S256 ![] bcast_S_S256 (constantI S_ 32 1024#32))) rowWords)

/-- 0.5 · ((x·E)² − (x²)·(E²)) on all 1024 rows. -/
abbrev combined (x : FVec F S1024x100 .f32) (e : FVec F S100x128 .f32) : FVec F S1024x128 .f32 :=
  mulf (broadcastInDim S1024x128 ![] bcast_S_S1024x128 (constant S_ .f32 0x3F000000#32))
    (subf (mulf (Host.dotGeneral dot_S1024x100_S100x128_S1024x128_1_0_0_1_n_n none x e)
        (Host.dotGeneral dot_S1024x100_S100x128_S1024x128_1_0_0_1_n_n none x e))
      (Host.dotGeneral dot_S1024x100_S100x128_S1024x128_1_0_0_1_n_n none (mulf x x) (mulf e e)))

/-- The reference's result: the rows 0 … 255 of the combined array written into zeros at the rows 0 … 255. -/
abbrev refOut (x : FVec F S1024x100 .f32) (e : FVec F S100x128 .f32) : FVec F S1024x128 .f32 :=
  Host.scatter scatter_S1024x128_S256x1_S256x128_1_0_0_1 (fun _ b => b)
    (broadcastInDim S1024x128 ![] bcast_S_S1024x128 (constant S_ .f32 0x00000000#32)) rowIdx
    (Host.gather gather_S1024x128_S256x1_S256x128_1_0_n_n_0_1_1128 (combined x e) rowIdx)

/-- @main's 30 operations, in order. -/
abbrev ops : List (HloOp τ sig (Elt F)) :=
  [ nullary main_c (fun i => lit0 (S256.rowMajor i)),
    binary main_arg0 main_arg1 main_v0 ((fun l r => Host.dotGeneral dot_S1024x100_S100x128_S1024x128_1_0_0_1_n_n none l r) : (⟨S1024x100, .f32⟩ : BufTy).Contents (Elt F) → (⟨S100x128, .f32⟩ : BufTy).Contents (Elt F) → (⟨S1024x128, .f32⟩ : BufTy).Contents (Elt F)),
    binary main_arg0 main_arg0 main_v1 (mulf : (⟨S1024x100, .f32⟩ : BufTy).Contents (Elt F) → (⟨S1024x100, .f32⟩ : BufTy).Contents (Elt F) → (⟨S1024x100, .f32⟩ : BufTy).Contents (Elt F)),
    binary main_arg1 main_arg1 main_v2 (mulf : (⟨S100x128, .f32⟩ : BufTy).Contents (Elt F) → (⟨S100x128, .f32⟩ : BufTy).Contents (Elt F) → (⟨S100x128, .f32⟩ : BufTy).Contents (Elt F)),
    binary main_v1 main_v2 main_v3 ((fun l r => Host.dotGeneral dot_S1024x100_S100x128_S1024x128_1_0_0_1_n_n none l r) : (⟨S1024x100, .f32⟩ : BufTy).Contents (Elt F) → (⟨S100x128, .f32⟩ : BufTy).Contents (Elt F) → (⟨S1024x128, .f32⟩ : BufTy).Contents (Elt F)),
    binary main_v0 main_v0 main_v4 (mulf : (⟨S1024x128, .f32⟩ : BufTy).Contents (Elt F) → (⟨S1024x128, .f32⟩ : BufTy).Contents (Elt F) → (⟨S1024x128, .f32⟩ : BufTy).Contents (Elt F)),
    binary main_v4 main_v3 main_v5 (subf : (⟨S1024x128, .f32⟩ : BufTy).Contents (Elt F) → (⟨S1024x128, .f32⟩ : BufTy).Contents (Elt F) → (⟨S1024x128, .f32⟩ : BufTy).Contents (Elt F)),
    nullary main_cst (constant S_ .f32 0x3F000000#32),
    unary main_cst main_v6 (broadcastInDim S1024x128 ![] bcast_S_S1024x128 : (⟨S_, .f32⟩ : BufTy).Contents (Elt F) → (⟨S1024x128, .f32⟩ : BufTy).Contents (Elt F)),
    binary main_v6 main_v5 main_v7 (mulf : (⟨S1024x128, .f32⟩ : BufTy).Contents (Elt F) → (⟨S1024x128, .f32⟩ : BufTy).Contents (Elt F) → (⟨S1024x128, .f32⟩ : BufTy).Contents (Elt F)),
    nullary main_cst_0 (constant S_ .f32 0x00000000#32),
    unary main_cst_0 main_v8 (broadcastInDim S1024x128 ![] bcast_S_S1024x128 : (⟨S_, .f32⟩ : BufTy).Contents (Elt F) → (⟨S1024x128, .f32⟩ : BufTy).Contents (Elt F)),
    nullary main_c_1 (constantI S_ 32 0#32),
    unary main_c_1 main_v9 (broadcastInDim S256 ![] bcast_S_S256 : (⟨S_, .i32⟩ : BufTy).Contents (Elt F) → (⟨S256, .i32⟩ : BufTy).Contents (Elt F)),
    binary main_c main_v9 main_v10 (cmpi .slt : (⟨S256, .i32⟩ : BufTy).Contents (Elt F) → (⟨S256, .i32⟩ : BufTy).Contents (Elt F) → (⟨S256, .i1⟩ : BufTy).Contents (Elt F)),
    nullary main_c_2 (constantI S_ 32 1024#32),
    unary main_c_2 main_v11 (broadcastInDim S256 ![] bcast_S_S256 : (⟨S_, .i32⟩ : BufTy).Contents (Elt F) → (⟨S256, .i32⟩ : BufTy).Contents (Elt F)),
    binary main_c main_v11 main_v12 (addi : (⟨S256, .i32⟩ : BufTy).Contents (Elt F) → (⟨S256, .i32⟩ : BufTy).Contents (Elt F) → (⟨S256, .i32⟩ : BufTy).Contents (Elt F)),
    ternary main_v10 main_v12 main_c main_v13 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v13 main_v14 (broadcastInDim S256x1 ![0] bcast_S256_S256x1_0 : (⟨S256, .i32⟩ : BufTy).Contents (Elt F) → (⟨S256x1, .i32⟩ : BufTy).Contents (Elt F)),
    binary main_v7 main_v14 main_v15 ((fun x i => Host.gather gather_S1024x128_S256x1_S256x128_1_0_n_n_0_1_1128 x i) : (⟨S1024x128, .f32⟩ : BufTy).Contents (Elt F) → (⟨S256x1, .i32⟩ : BufTy).Contents (Elt F) → (⟨S256x128, .f32⟩ : BufTy).Contents (Elt F)),
    nullary main_c_3 (constantI S_ 32 0#32),
    unary main_c_3 main_v16 (broadcastInDim S256 ![] bcast_S_S256 : (⟨S_, .i32⟩ : BufTy).Contents (Elt F) → (⟨S256, .i32⟩ : BufTy).Contents (Elt F)),
    binary main_c main_v16 main_v17 (cmpi .slt : (⟨S256, .i32⟩ : BufTy).Contents (Elt F) → (⟨S256, .i32⟩ : BufTy).Contents (Elt F) → (⟨S256, .i1⟩ : BufTy).Contents (Elt F)),
    nullary main_c_4 (constantI S_ 32 1024#32),
    unary main_c_4 main_v18 (broadcastInDim S256 ![] bcast_S_S256 : (⟨S_, .i32⟩ : BufTy).Contents (Elt F) → (⟨S256, .i32⟩ : BufTy).Contents (Elt F)),
    binary main_c main_v18 main_v19 (addi : (⟨S256, .i32⟩ : BufTy).Contents (Elt F) → (⟨S256, .i32⟩ : BufTy).Contents (Elt F) → (⟨S256, .i32⟩ : BufTy).Contents (Elt F)),
    ternary main_v17 main_v19 main_c main_v20 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v20 main_v21 (broadcastInDim S256x1 ![0] bcast_S256_S256x1_0 : (⟨S256, .i32⟩ : BufTy).Contents (Elt F) → (⟨S256x1, .i32⟩ : BufTy).Contents (Elt F)),
    ternary main_v8 main_v21 main_v15 main_v22 ((fun x i u => Host.scatter scatter_S1024x128_S256x1_S256x128_1_0_0_1 (fun _ b => b) x i u) : (⟨S1024x128, .f32⟩ : BufTy).Contents (Elt F) → (⟨S256x1, .i32⟩ : BufTy).Contents (Elt F) → (⟨S256x128, .f32⟩ : BufTy).Contents (Elt F) → (⟨S1024x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩

/-- On every device, for any float values, from any memory with zero counters: every weakly fair execution of @main
    terminates with the result buffer at `refOut` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.LibRowGather.lean ====
/-
  The gather of rows of a table [N, D] at start indices laid out [E, 1] (one word per result row: the offset axis is
  the result's last axis, the table's row axis is collapsed, the index vector sits on the trailing unit axis, slices
  [1, D]), read at an index: result entry (e, k) is the table at the row the word idx[e, 0] names — read signed and
  clamped into [0, N − 1], as a gather clamps every start index — and at column k. Stated over arbitrary extents; it
  mentions no program. In particular the row read does not depend on the width D: gathering a table of concatenated
  column groups gathers each group.
-/
import Idealize.ShloMosaic.Lib.ValueIdx
import Idealize.ShloMosaic.Lib.Affine

noncomputable section

namespace Cert.Proof.RowGather

open Idealize.ShloMosaic Idealize.ShloMosaic.ValueIdx

variable {α : Type}

/-- The dimension numbers of the row gather; their conditions wf are decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Axis 1 of a rank-2 table is kept when axis 0 is the one collapsed. -/
theorem one_mem_kept : (1 : Fin 2) ∈ (List.finRange 2).filter (· ∉ ([0] ++ [] : List (Fin 2))) := by decide

/-- The row gather read at (e, k). -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowDims N D E wf).start (ix2 e k) idx 0 + (rowDims N D E wf).batchCoord (ix2 e k) 0
        + (rowDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e k) idx 1 + (rowDims N D E wf).batchCoord (ix2 e k) 1
        + (rowDims N D E wf).offCoord (ix2 e k) 1 = k.val
    rw [GatherDims.batchCoord_eq_zero _ _ _ List.not_mem_nil]
    have hs : (rowDims N D E wf).start (ix2 e k) idx 1 = 0 := by
      unfold GatherDims.start
      rw [dif_neg (show (1 : Fin 2) ∉ ([0] : List (Fin 2)) by decide)]
    have hk : (1 : Fin 2) ∈ (rowDims N D E wf).sKept := one_mem_kept
    have ho : (rowDims N D E wf).offCoord (ix2 e k) 1 = k.val := by
      unfold GatherDims.offCoord
      rw [dif_pos hk]
      rfl
    rw [hs, ho]
    omega

end Cert.Proof.RowGather

end
-- ==== Proof.LibScatterRows.lean ====
/-
  A scatter that SETS rows of a table, read at an index.

  `x.at[idx].set(upd)` on the host is a fold: the updates are taken in row-major order, and each one that lands inside
  the operand overwrites the element it lands on. When the updates that land on a given element are exactly one, the
  fold leaves that update there; when none does, it leaves the operand's element.

  First for any scatter whose body returns the update; then for the scatter of rows of a table [N, D] at start
  indices laid out [E, 1] (one word per update row: the window axis is the updates' last axis, the table's row
  axis is inserted, the index vector sits on the trailing unit axis): update row e lands on the table row its word
  names, read signed, column for column. Stated over arbitrary extents; it mentions no program.
-/
import Idealize.ShloMosaic.Lib.ValueIdx

noncomputable section

namespace Cert.Proof.RowScatter

open Idealize.ShloMosaic Idealize.ShloMosaic.ValueIdx

/-! ## A fold of overwriting steps -/

section Fold

variable {ι κ α : Type} {step : (ι → α) → κ → ι → α} {res : κ → Option ι} {val : κ → α}

/-- An element no step of the fold lands on keeps its starting value. (A step that lands on i sets the element i to its
    value and leaves every other element; a step that lands nowhere leaves everything.) -/
theorem foldl_miss (hsome : ∀ r n i, res n = some i → step r n i = val n ∧ ∀ i', i' ≠ i → step r n i' = r i')
    (hnone : ∀ r n, res n = none → step r n = r) (i' : ι) :
    ∀ (L : List κ) (x : ι → α), (∀ n ∈ L, res n ≠ some i') → L.foldl step x i' = x i'
  | [], _, _ => rfl
  | n :: L, x, h => by
    rw [List.foldl_cons, foldl_miss hsome hnone i' L (step x n) (fun k hk => h k (List.mem_cons_of_mem _ hk))]
    cases hr : res n with
    | none => rw [hnone x n hr]
    | some i =>
      have hne : i' ≠ i := fun e => h n List.mem_cons_self (by rw [hr, e])
      exact (hsome x n i hr).2 i' hne

/-- An element exactly one step of the fold lands on ends at that step's value. -/
theorem foldl_hit (hsome : ∀ r n i, res n = some i → step r n i = val n ∧ ∀ i', i' ≠ i → step r n i' = r i')
    (hnone : ∀ r n, res n = none → step r n = r) (i' : ι) (n₀ : κ) (hres : res n₀ = some i') :
    ∀ (L : List κ) (x : ι → α), L.Nodup → n₀ ∈ L → (∀ n ∈ L, res n = some i' → n = n₀) → L.foldl step x i' = val n₀
  | [], _, _, hm, _ => absurd hm List.not_mem_nil
  | n :: L, x, hnd, hm, hu => by
    rw [List.foldl_cons]
    have hnd' := List.nodup_cons.mp hnd
    by_cases hn : n = n₀
    · have hL : ∀ k ∈ L, res k ≠ some i' := fun k hk hk' => hnd'.1 (by
        have := hu k (List.mem_cons_of_mem _ hk) hk'
        rw [hn, ← this]; exact hk)
      rw [foldl_miss hsome hnone i' L _ hL, (hsome x n i' (by rw [hn]; exact hres)).1, hn]
    · have hm' : n₀ ∈ L := by
        rcases List.mem_cons.mp hm with h | h
        · exact absurd h.symm hn
        · exact h
      exact foldl_hit hsome hnone i' n₀ hres L _ hnd'.2 hm' (fun k hk => hu k (List.mem_cons_of_mem _ hk))

end Fold

/-! ## A scatter whose body returns the update -/

section Scatter

variable {s si u : Shape} {α : Type} {w : Nat}

/-- Where exactly one update lands, the scatter leaves that update. -/
theorem scatter_set_apply_of_hit (d : ScatterDims s si u) (x : s.Idx → α) (idx : IVec si w) (upd : u.Idx → α)
    (i : s.Idx) (j₀ : u.Idx) (hhit : d.resultIdx? j₀ idx = some i)
    (huniq : ∀ j, d.resultIdx? j idx = some i → j = j₀) :
    Host.scatter d (fun _ b => b) x idx upd i = upd j₀ := by
  unfold Host.scatter
  refine (foldl_hit (res := fun n => d.resultIdx? (u.rowMajor.symm n) idx) (val := fun n => upd (u.rowMajor.symm n))
    (fun r n k h => ?_) (fun r n h => ?_) i (u.rowMajor j₀) ?_ (List.finRange u.numel) x (List.nodup_finRange _)
    (List.mem_finRange _) (fun n _ h => ?_)).trans ?_
  · simp only [h]; exact ⟨if_pos trivial, fun i' hne => if_neg hne⟩
  · simp only [h]
  · simpa using hhit
  · have := huniq _ h; rw [← this]; simp
  · simp

/-- Where no update lands, the scatter leaves the operand. -/
theorem scatter_set_apply_of_miss (d : ScatterDims s si u) (x : s.Idx → α) (idx : IVec si w) (upd : u.Idx → α)
    (i : s.Idx) (hmiss : ∀ j, d.resultIdx? j idx ≠ some i) :
    Host.scatter d (fun _ b => b) x idx upd i = x i := by
  unfold Host.scatter
  refine foldl_miss (res := fun n => d.resultIdx? (u.rowMajor.symm n) idx) (val := fun n => upd (u.rowMajor.symm n))
    (fun r n k h => ?_) (fun r n h => ?_) i (List.finRange u.numel) x (fun n _ => hmiss _)
  · simp only [h]; exact ⟨if_pos trivial, fun i' hne => if_neg hne⟩
  · simp only [h]

end Scatter

/-! ## Rows of a table -/

section Rows

variable {α : Type} {N D E w : Nat}

/-- The dimension numbers of the row scatter; their conditions wf are decided on a program's literal shapes. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the row axis update (e, k) starts at the word of update row e, read signed; -/
theorem start_row (e : Fin E) (k : Fin D) :
    (rowDims N D E wf).start (ix2 e k) idx 0 = (idx (ix2 e (0 : Fin 1))).toInt := by
  unfold ScatterDims.start
  rw [dif_pos (show (0 : Fin 2) ∈ (rowDims N D E wf).scatterDimsToOperandDims from List.mem_singleton.mpr rfl)]
  have hsi : (rowDims N D E wf).siIdx (ix2 e k) ⟨List.idxOf (0 : Fin 2) (rowDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- on the column axis at 0; -/
theorem start_col (e : Fin E) (k : Fin D) : (rowDims N D E wf).start (ix2 e k) idx 1 = 0 := by
  unfold ScatterDims.start
  rw [dif_neg (show (1 : Fin 2) ∉ ([0] : List (Fin 2)) by decide)]

/-- its window coordinate is 0 on the row axis (the axis is inserted) -/
theorem window_row (e : Fin E) (k : Fin D) : (rowDims N D E wf).window (ix2 e k) 0 = 0 := by
  unfold ScatterDims.window
  rw [dif_neg (show (0 : Fin 2) ∉ (rowDims N D E wf).sKept by simp [ScatterDims.sKept, Shape.kept])]

/-- and its column on the column axis. -/
theorem window_col (e : Fin E) (k : Fin D) : (rowDims N D E wf).window (ix2 e k) 1 = k.val := by
  unfold ScatterDims.window
  rw [dif_pos (show (1 : Fin 2) ∈ (rowDims N D E wf).sKept by simp [ScatterDims.sKept, Shape.kept])]
  rfl

/-- So update (e, k) lands on (r, k) when the word of update row e names the table row r. -/
theorem resultIdx_rows (e : Fin E) (k : Fin D) (r : Fin N) (hr : (idx (ix2 e (0 : Fin 1))).toInt = (r.val : Int)) :
    (rowDims N D E wf).resultIdx? (ix2 e k) idx = some (ix2 r k) := by
  have s0 := start_row wf idx e k
  have s1 := start_col wf idx e k
  have w0 := window_row (N := N) wf e k
  have w1 := window_col (N := N) wf e k
  have hb : ∀ a, 0 ≤ (rowDims N D E wf).start (ix2 e k) idx a + (rowDims N D E wf).window (ix2 e k) a
      ∧ (rowDims N D E wf).start (ix2 e k) idx a + (rowDims N D E wf).window (ix2 e k) a < (⟨2, ![N, D]⟩ : Shape).size a := by
    intro a
    match a with
    | ⟨0, _⟩ =>
      show 0 ≤ (rowDims N D E wf).start (ix2 e k) idx 0 + ((rowDims N D E wf).window (ix2 e k) 0 : Nat)
        ∧ (rowDims N D E wf).start (ix2 e k) idx 0 + ((rowDims N D E wf).window (ix2 e k) 0 : Nat) < (N : Int)
      rw [s0, w0, hr]; have := r.isLt; omega
    | ⟨1, _⟩ =>
      show 0 ≤ (rowDims N D E wf).start (ix2 e k) idx 1 + ((rowDims N D E wf).window (ix2 e k) 1 : Nat)
        ∧ (rowDims N D E wf).start (ix2 e k) idx 1 + ((rowDims N D E wf).window (ix2 e k) 1 : Nat) < (D : Int)
      rw [s1, w1]; have := k.isLt; omega
  unfold ScatterDims.resultIdx?
  rw [dif_pos hb]
  congr 1
  funext a
  refine Fin.ext ?_
  match a with
  | ⟨0, _⟩ =>
    show ((rowDims N D E wf).start (ix2 e k) idx 0 + ((rowDims N D E wf).window (ix2 e k) 0 : Nat)).toNat = r.val
    rw [s0, w0, hr]; omega
  | ⟨1, _⟩ =>
    show ((rowDims N D E wf).start (ix2 e k) idx 1 + ((rowDims N D E wf).window (ix2 e k) 1 : Nat)).toNat = k.val
    rw [s1, w1]; omega

variable (x : (⟨2, ![N, D]⟩ : Shape).Idx → α) (upd : (⟨2, ![E, D]⟩ : Shape).Idx → α)
  (ρ : Fin E → Fin N) (hρ : Function.Injective ρ) (hidx : ∀ e, (idx (ix2 e (0 : Fin 1))).toInt = ((ρ e).val : Int))

include hρ hidx in
/-- THE ROW SCATTER READ AT A WRITTEN ROW: when the words name pairwise distinct table rows ρ e, the table row ρ e ends
    holding update row e. -/
theorem scatter_rows_set_hit (e : Fin E) (k : Fin D) :
    Host.scatter (rowDims N D E wf) (fun _ b => b) x idx upd (ix2 (ρ e) k) = upd (ix2 e k) := by
  refine scatter_set_apply_of_hit _ x idx upd _ (ix2 e k) (resultIdx_rows wf idx e k (ρ e) (hidx e)) ?_
  intro j hj
  obtain ⟨e', k', rfl⟩ : ∃ (e' : Fin E) (k' : Fin D), j = ix2 e' k' := ⟨j 0, j 1, eq_ix2 j⟩
  rw [resultIdx_rows wf idx e' k' (ρ e') (hidx e')] at hj
  have h := Option.some.inj hj
  have h0 : ρ e' = ρ e := congrFun h 0
  have h1 : k' = k := congrFun h 1
  rw [hρ h0, h1]

include hidx in
/-- … AND AT A ROW NO WORD NAMES: the table row keeps the operand's contents. -/
theorem scatter_rows_set_miss (r : Fin N) (hr : ∀ e, ρ e ≠ r) (k : Fin D) :
    Host.scatter (rowDims N D E wf) (fun _ b => b) x idx upd (ix2 r k) = x (ix2 r k) := by
  refine scatter_set_apply_of_miss _ x idx upd _ ?_
  intro j hj
  obtain ⟨e', k', rfl⟩ : ∃ (e' : Fin E) (k' : Fin D), j = ix2 e' k' := ⟨j 0, j 1, eq_ix2 j⟩
  rw [resultIdx_rows wf idx e' k' (ρ e') (hidx e')] at hj
  exact hr e' (congrFun (Option.some.inj hj) 0)

end Rows

end Cert.Proof.RowScatter

end
-- ==== Proof.RefBridge.lean ====
/-
  The reference's result at an entry, on the extended reals.

  The table of row numbers holds the words 0 … 255, none negative, so jnp's index arithmetic leaves them as they are:
  the start index of update row e is e, for the gather and for the scatter alike. The gather therefore reads rows
  0 … 255 of the combined array ½ · ((x·E)² − (x²)·(E²)), and the scatter — whose 256 start rows are pairwise
  distinct and inside the 1024 rows — writes gathered row e to row e of an array of zeros and leaves the rows from
  256 on at zero. With the two host products read as sums, the reference's result holds the specification's value at
  every entry.
-/
import proofs.«164656_g37744172598002_cont_sun_m_442_5_alg».proof.Proof.RefRun
import proofs.«164656_g37744172598002_cont_sun_m_442_5_alg».proof.Proof.Spec
import proofs.«164656_g37744172598002_cont_sun_m_442_5_alg».proof.Proof.LibPlainDot
import proofs.«164656_g37744172598002_cont_sun_m_442_5_alg».proof.Proof.LibRowGather
import proofs.«164656_g37744172598002_cont_sun_m_442_5_alg».proof.Proof.LibScatterRows

noncomputable section

open scoped BigOperators

namespace Cert.ReferenceIdeal.RBridge

open Cert.ReferenceIdeal Cert.ReferenceIdeal.Gen Cert.ReferenceIdeal.RefRun Idealize.ShloMosaic Idealize.ShloMosaic.ValueIdx
open Cert.Proof

/-- The start index of update row e, read signed, is e: the literal words are 0 … 255 and none is shifted
    (decided over the 256 rows). -/
theorem row_word : ∀ e' : Fin 256, (rowIdx (ix2 e' (0 : Fin 1))).toInt = (e'.val : Int) := by
  decide +kernel

/-- Update row e names table row e. -/
def rowOf (e' : Fin 256) : Fin 1024 := ⟨e'.val, by have := e'.isLt; omega⟩

theorem rowOf_inj : Function.Injective rowOf := fun a b h => by
  have h' : (rowOf a).val = (rowOf b).val := congrArg Fin.val h
  exact Fin.ext h'

theorem row_word' : ∀ e' : Fin 256, (rowIdx (ix2 e' (0 : Fin 1))).toInt = ((rowOf e').val : Int) := row_word

/-- The combined array at (r, c): the two host products as sums, then the pointwise combine. -/
theorem combined_apply (x : FVec Ideal S1024x100 .f32) (e : FVec Ideal S100x128 .f32) (r : Fin 1024) (c : Fin 128) :
    combined (F := Ideal) x e (ix2 r c) = BiPool.pooled x e r c := by
  unfold BiPool.pooled combined
  rw [mulf_apply, subf_apply, mulf_apply]
  rw [show dot_S1024x100_S100x128_S1024x128_1_0_0_1_n_n
      = PlainDot.plainDot 1024 100 128 dot_S1024x100_S100x128_S1024x128_1_0_0_1_n_n_wf from rfl]
  rw [PlainDot.dotGeneral_plain_apply, PlainDot.dotGeneral_plain_apply]
  rfl

/-- The gathered rows: row e of the gather is row e of the combined array. -/
theorem gathered_apply (x : FVec Ideal S1024x100 .f32) (e : FVec Ideal S100x128 .f32) (e' : Fin 256) (k : Fin 128) :
    Host.gather gather_S1024x128_S256x1_S256x128_1_0_n_n_0_1_1128 (combined (F := Ideal) x e) rowIdx (ix2 e' k)
      = BiPool.pooled x e (rowOf e') k := by
  refine (RowGather.gather_rows_apply (N := 1024) (D := 128) (E := 256) (by decide)
    gather_S1024x128_S256x1_S256x128_1_0_n_n_0_1_1128_wf (combined (F := Ideal) x e) rowIdx e' k).trans ?_
  have hr : ∀ h, (⟨min (rowIdx (ix2 e' (0 : Fin 1))).toInt.toNat (1024 - 1), h⟩ : Fin 1024) = rowOf e' := fun h =>
    Fin.ext (by
      show min (rowIdx (ix2 e' (0 : Fin 1))).toInt.toNat (1024 - 1) = e'.val
      rw [row_word e']
      have := e'.isLt
      omega)
  rw [hr]
  exact combined_apply x e (rowOf e') k

/-- THE REFERENCE'S RESULT AT (r, c) is the specification's value. -/
theorem refOut_eq_spec (x : FVec Ideal S1024x100 .f32) (e : FVec Ideal S100x128 .f32) (r : Fin 1024) (c : Fin 128) :
    refOut (F := Ideal) x e (ix2 r c) = BiPool.spec x e r c := by
  unfold BiPool.spec
  by_cases h : r.val < 256
  · rw [if_pos h]
    obtain ⟨e', rfl⟩ : ∃ e' : Fin 256, r = rowOf e' := ⟨⟨r.val, h⟩, Fin.ext rfl⟩
    refine (RowScatter.scatter_rows_set_hit (N := 1024) (D := 128) (E := 256)
      scatter_S1024x128_S256x1_S256x128_1_0_0_1_wf rowIdx _ _ rowOf rowOf_inj row_word' e' c).trans ?_
    exact gathered_apply x e e' c
  · rw [if_neg h]
    refine (RowScatter.scatter_rows_set_miss (N := 1024) (D := 128) (E := 256)
      scatter_S1024x128_S256x1_S256x128_1_0_0_1_wf rowIdx _ _ rowOf row_word' r
      (fun e' he => h (by rw [← he]; exact e'.isLt)) c).trans ?_
    rfl

end Cert.ReferenceIdeal.RBridge

end
-- ==== Proof.lean ====
/-
  Bi-interaction pooling: the kernel against its jnp reference, on the extended reals.

  For the batch x [1024, 100] and the table E [100, 128] both programs produce the array that holds, on its first 256
  rows, ½ · ((x·E)² − (x²)·(E²)) — the square and the products of squares entrywise, the two products matrix
  products — and zero on the other 768 rows.

  The kernel runs once on the whole arrays: it loads the first 256 rows of x and all of E, forms the [256, 128] block
  with two matrix-unit products onto zero accumulators, stores it on rows 0 … 255 of its output and stores zeros on
  rows 256 … 1023 (Proof/KernelValue.lean reads the two stores back as one function of the index, and the one
  write-back as the whole array).

  The reference computes the combined array on all 1024 rows, gathers the rows whose numbers a literal table lists
  (0 … 255), and scatters them, at the same row numbers, into an array of zeros (Proof/RefRun.lean runs its thirty
  host operations; Proof/RefBridge.lean reads the gather and the scatter at an entry: the row numbers are pairwise
  distinct and in range, so row e of the result is gathered row e and every other row stays zero).

  At an entry (r, c) both sides are the same sums and products in the same grouping (Proof/Spec.lean): a matrix-unit
  product onto zero and the host's product are the sum over the 100 contracted positions, and the constants are the
  same float words. No property of the inputs is used, so the precondition is never opened.

  The frames of the two kernel programs are the generated ones; the reference's frame is its run with the result
  dropped; the idealization rewrote nothing, so there is nothing to preserve.
-/
import proofs.«164656_g37744172598002_cont_sun_m_442_5_alg».proof.Defs
import proofs.«164656_g37744172598002_cont_sun_m_442_5_alg».proof.Proof.Gen.Kernel
import proofs.«164656_g37744172598002_cont_sun_m_442_5_alg».proof.Proof.Gen.Kernel.Frame
import proofs.«164656_g37744172598002_cont_sun_m_442_5_alg».proof.Proof.Gen.KernelIdeal
import proofs.«164656_g37744172598002_cont_sun_m_442_5_alg».proof.Proof.Gen.KernelIdeal.Frame
import proofs.«164656_g37744172598002_cont_sun_m_442_5_alg».proof.Proof.Gen.KernelIdeal.Value
import proofs.«164656_g37744172598002_cont_sun_m_442_5_alg».proof.Proof.Gen.ReferenceIdeal
import proofs.«164656_g37744172598002_cont_sun_m_442_5_alg».proof.Proof.Gen.Pre_finite_inputs
import proofs.«164656_g37744172598002_cont_sun_m_442_5_alg».proof.Proof.KernelBridge
import proofs.«164656_g37744172598002_cont_sun_m_442_5_alg».proof.Proof.RefBridge
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, with the result's value dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The two results are one function of the arguments: at every entry both are the specification's value. -/
theorem result_eq (x : FVec Ideal Cert.KernelIdeal.S1024x100 .f32) (e : FVec Ideal Cert.KernelIdeal.S100x128 .f32) :
    Cert.ReferenceIdeal.RefRun.refOut (F := Ideal) x e = Cert.KernelIdeal.KValue.bodyOut (F := Ideal) x e := by
  funext i
  obtain ⟨r, c, rfl⟩ : ∃ (r : Fin 1024) (c : Fin 128), i = ix2 r c := ⟨i 0, i 1, eq_ix2 i⟩
  rw [Cert.ReferenceIdeal.RBridge.refOut_eq_spec, Cert.KernelIdeal.KBridge.bodyOut_eq_spec]

/-- From memories that agree on x and E the kernel's result array and the reference's end equal, entry by entry. -/
theorem algebraic : Cert.algebraic_KernelIdeal_ReferenceIdeal := by
  intro m ρ m' ρ' _ hagree
  refine ⟨fun c => Cert.KernelIdeal.KValue.result m c, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
